-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2560 : Shape := ⟨2, ![4096, 2560]⟩
abbrev S2048x1024 : Shape := ⟨2, ![2048, 1024]⟩
abbrev S2048x2048 : Shape := ⟨2, ![2048, 2048]⟩
abbrev S6144x1024 : Shape := ⟨2, ![6144, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2560 : S_.BroadcastsInDim S4096x2560 (![] : Fin 0 → Fin S4096x2560.rank)
  reducesTo_S4096x2560_S_d0_1 : S4096x2560.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S6144x1024 : S_.BroadcastsInDim S6144x1024 (![] : Fin 0 → Fin S6144x1024.rank)
  reducesTo_S6144x1024_S_d0_1 : S6144x1024.ReducesTo [0, 1] S_

variable [Facts]

def fn_part1 {F : FTy → Type} [FloatOps F] (main_arg4 : FVec F S6144x1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S6144x1024 .f32 := Host.absf main_arg4
  let main_cst_6 : FVec F S_ .f32 := constant S_ .f32 0x7F800000#32
  let main_v20 : FVec F S6144x1024 .f32 := broadcastInDim S6144x1024 ![] bcast_S_S6144x1024 main_cst_6
  let main_v21 : IVec S6144x1024 1 := cmpf .olt main_v19 main_v20
  let main_c_7 : IVec S_ 1 := constantI S_ 1 1#1
  let main_v22 : IVec S_ 1 := (fun x v => Host.reduce IntOp.andi x v reducesTo_S6144x1024_S_d0_1 h_S_) main_v21 main_c_7
  let main_v23 : IVec S_ 1 := andi main_v18 main_v22
  main_v23

def fn {F : FTy → Type} [FloatOps F] (main_arg0 : FVec F S4096x1024 .f32) (main_arg1 : FVec F S4096x2560 .f32) (main_arg2 : FVec F S2048x1024 .f32) (main_arg3 : FVec F S2048x2048 .f32) (main_arg4 : FVec F S6144x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2560 .f32 := Host.absf main_arg1
  let main_cst_0 : FVec F S_ .f32 := constant S_ .f32 0x7F800000#32
  let main_v5 : FVec F S4096x2560 .f32 := broadcastInDim S4096x2560 ![] bcast_S_S4096x2560 main_cst_0
  let main_v6 : IVec S4096x2560 1 := cmpf .olt main_v4 main_v5
  let main_c_1 : IVec S_ 1 := constantI S_ 1 1#1
  let main_v7 : IVec S_ 1 := (fun x v => Host.reduce IntOp.andi x v reducesTo_S4096x2560_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x1024 : Shape := ⟨2, ![4096, 1024]⟩
abbrev S4096x2560 : Shape := ⟨2, ![4096, 2560]⟩
abbrev S2048x1024 : Shape := ⟨2, ![2048, 1024]⟩
abbrev S2048x2048 : Shape := ⟨2, ![2048, 2048]⟩
abbrev S6144x1024 : Shape := ⟨2, ![6144, 1024]⟩
abbrev S128x1024 : Shape := ⟨2, ![128, 1024]⟩
abbrev S128x2048 : Shape := ⟨2, ![128, 2048]⟩
abbrev S128x2560 : Shape := ⟨2, ![128, 2560]⟩
abbrev S128x6144 : Shape := ⟨2, ![128, 6144]⟩
abbrev S128x512 : Shape := ⟨2, ![128, 512]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S2048x1024, .f32⟩
  | .hbm, ⟨3, _⟩ => ⟨S2048x2048, .f32⟩
  | .hbm, ⟨4, _⟩ => ⟨S6144x1024, .f32⟩
  | .hbm, ⟨5, _⟩ => ⟨S2048x1024, .bf16⟩
  | .hbm, ⟨6, _⟩ => ⟨S2048x2048, .bf16⟩
  | .hbm, ⟨7, _⟩ => ⟨S6144x1024, .bf16⟩
  | .hbm, ⟨8, _⟩ => ⟨S4096x2560, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S2048x1024, .bf16⟩
  | .local _ .vmem, ⟨5, _⟩ => ⟨S2048x2048, .bf16⟩
  | .local _ .vmem, ⟨6, _⟩ => ⟨S6144x1024, .bf16⟩
  | .local _ .vmem, ⟨7, _⟩ => ⟨S128x2560, .f32⟩
  | .local _ .vmem, ⟨8, _⟩ => ⟨S128x2560, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S128x2048_S128x2048_0_0 : ∀ a, (![0, 0] : Fin 2 → Nat) a + S128x2048.size a ≤ S128x2048.size a
  h_S128x2048 : 0 < S128x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S6144x1024_S6144x1024_0_0 : ∀ a, (![0, 0] : Fin 2 → Nat) a + S6144x1024.size a ≤ S6144x1024.size a
  h_S6144x1024 : 0 < S6144x1024.numel
  shapeCasts_S6144x1024_S6144x1024 : S6144x1024.ShapeCasts S6144x1024
  slices_S128x6144_o0_0_S128x2048 : S128x6144.Slices ![0, 0] S128x2048
  slices_S128x6144_o0_2048_S128x2048 : S128x6144.Slices ![0, 2048] S128x2048
  slices_S128x6144_o0_4096_S128x2048 : S128x6144.Slices ![0, 4096] S128x2048
  inb_S128x2560_S128x2048_0_0 : ∀ a, (![0, 0] : Fin 2 → Nat) a + S128x2048.size a ≤ S128x2560.size a
  inb_S128x2560_S128x512_0_2048 : ∀ a, (![0, 2048] : Fin 2 → Nat) a + S128x512.size a ≤ S128x2560.size a
  h_S128x512 : 0 < S128x512.numel
  dot_S128x1024_S2048x1024_S128x2048_1_1_0_0_n_n_wf : DotDims.WF S128x1024 S2048x1024 S128x2048 [1] [1] [0] [0] [] []
  dot_S128x2048_S2048x2048_S128x2048_1_1_0_0_n_n_wf : DotDims.WF S128x2048 S2048x2048 S128x2048 [1] [1] [0] [0] [] []
  dot_S128x1024_S6144x1024_S128x6144_1_1_0_0_n_n_wf : DotDims.WF S128x1024 S6144x1024 S128x6144 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x2048.size a < S4096x2560.size a
  hwx0_1 : ∀ i : grid0.Coords, EltTy.bits .f32 = 32 ∨ (Rect.unit (s := S4096x2560) (fun a => cc0_transform_1 i a * S128x2048.size a) (fun a => (Pipeline.Clip.of (cc0_transform_1 i a) (S128x2048.size a) (S4096x2560.size a)).extent (S128x2048.size a)) fun a => Pipeline.Clip.inb (Pipeline.Clip.ok_of (hstart0_1 i a))).WholeWords (EltTy.packing .f32)
  hwxs0_1 : ∀ i : grid0.Coords, EltTy.bits .f32 = 32 ∨ (Rect.unit (s := S128x2048) (fun _ => 0) (fun a => (Pipeline.Clip.of (cc0_transform_1 i a) (S128x2048.size a) (S4096x2560.size a)).extent (S128x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x1024.size a ≤ S6144x1024.size a
  hwx0_4 : ∀ i : grid0.Coords, EltTy.bits .bf16 = 32 ∨ (Rect.block (s := S6144x1024) S6144x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2560.size a ≤ S4096x2560.size a
  hwx0_5 : ∀ i : grid0.Coords, EltTy.bits .f32 = 32 ∨ (Rect.block (s := S4096x2560) S128x2560.size (cc0_transform_5 i) (hinb0_5 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S128x1024_S6144x1024_S128x6144_1_1_0_0_n_n : DotDims S128x1024 S6144x1024 S128x6144 where
  lhsContracting := [1]
  rhsContracting := [1]
  lhsNonContracting := [0]
  rhsNonContracting := [0]
  lhsBatch := []
  rhsBatch := []
  wf := dot_S128x1024_S6144x1024_S128x6144_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S128x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S6144x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x2560.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2560 : Shape := ⟨2, ![4096, 2560]⟩
abbrev S2048x1024 : Shape := ⟨2, ![2048, 1024]⟩
abbrev S2048x2048 : Shape := ⟨2, ![2048, 2048]⟩
abbrev S6144x1024 : Shape := ⟨2, ![6144, 1024]⟩
abbrev S4096x2048 : Shape := ⟨2, ![4096, 2048]⟩
abbrev S1024x2048 : Shape := ⟨2, ![1024, 2048]⟩
abbrev S1024x6144 : Shape := ⟨2, ![1024, 6144]⟩
abbrev S4096x6144 : Shape := ⟨2, ![4096, 6144]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S2048x1024, .f32⟩
  | .hbm, ⟨3, _⟩ => ⟨S2048x2048, .f32⟩
  | .hbm, ⟨4, _⟩ => ⟨S6144x1024, .f32⟩
  | .hbm, ⟨5, _⟩ => ⟨S4096x2048, .f32⟩
  | .hbm, ⟨6, _⟩ => ⟨S1024x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S1024x6144, .f32⟩
  | .hbm, ⟨11, _⟩ => ⟨S4096x6144, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S_, .f32⟩
  | .hbm, ⟨18, _⟩ => ⟨S4096x6144, .f32⟩
  | .hbm, ⟨19, _⟩ => ⟨S4096x6144, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .i1⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .i32⟩
  | .hbm, ⟨43, _⟩ => ⟨S_, .f32⟩
  | .hbm, ⟨44, _⟩ => ⟨S4096x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call1_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S4096x2560_S4096x2048_0_0 : S4096x2560.Slices ![0, 0] S4096x2048
  transposes_S2048x1024_S1024x2048_1_0 : S2048x1024.Transposes [1, 0] S1024x2048
  transposes_S2048x2048_S2048x2048_1_0 : S2048x2048.Transposes [1, 0] S2048x2048
  transposes_S6144x1024_S1024x6144_1_0 : S6144x1024.Transposes [1, 0] S1024x6144
  bcast_S_S4096x6144 : S_.BroadcastsInDim S4096x6144 (![] : Fin 0 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S_S4096x2048 : S_.BroadcastsInDim S4096x2048 (![] : Fin 0 → Fin S4096x2048.rank)
  pads_S4096x2048_S4096x2560_000_05120 : S4096x2048.Pads (![0, 0] : Fin 2 → Nat) ![0, 512] ![0, 0] S4096x2560
  h_S_ : 0 < S_.numel
  dot_S4096x1024_S1024x2048_S4096x2048_1_0_0_1_n_n_wf : DotDims.WF S4096x1024 S1024x2048 S4096x2048 [1] [0] [0] [1] [] []
  dot_S4096x2048_S2048x2048_S4096x2048_1_0_0_1_n_n_wf : DotDims.WF S4096x2048 S2048x2048 S4096x2048 [1] [0] [0] [1] [] []
  dot_S4096x1024_S1024x6144_S4096x6144_1_0_0_1_n_n_wf : DotDims.WF S4096x1024 S1024x6144 S4096x6144 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x1024_S1024x6144_S4096x6144_1_0_0_1_n_n : DotDims S4096x1024 S1024x6144 S4096x6144 where
  lhsContracting := [1]
  rhsContracting := [0]
  lhsNonContracting := [0]
  rhsNonContracting := [1]
  lhsBatch := []
  rhsBatch := []
  wf := dot_S4096x1024_S1024x6144_S4096x6144_1_0_0_1_n_n_wf

class Facts : Prop extends Facts₀ where

variable [Facts]
-- ==== Proof.FrameBits.lean ====
/-
  The frame of the reservoir kernel's one pallas_call, at any float instance: every weakly fair execution of the
  program terminates without a fault and leaves its five argument arrays as they were; and, for the value claim,
  what each staging buffer holds after the body at every grid point.

  The grid has 32 points; point t stages rows 128·t … 128·t+127 of the inputs (all 1024 columns) and of the previous
  state (its first 2048 of 2560 columns), the three weight matrices whole (fetched once), and writes back rows
  128·t … 128·t+127 of the result (all 2560 columns). The body loads the five input blocks whole, computes the new
  state block, stores it into columns 0 … 2047 of the result's block and zeros into columns 2048 … 2559: the two
  stores together cover the block, so the block after the body is a function of the five loaded blocks alone
  (`out5`). The previous state's window is declared with a block width (2048) that does not divide the array's
  (2560), but its index map only ever names block column 0, so no block reaches past the array: nothing is cut
  at any grid point (`uncut1`), and the staging buffer holds the whole block whatever it held before the fetch.
-/
import proofs.«111329_j10806137717145_2_alg».proof.Proof.Gen.Kernel.Launch
import proofs.«111329_j10806137717145_2_alg».proof.Proof.Gen.Kernel.Skeleton
import proofs.«111329_j10806137717145_2_alg».proof.Proof.Gen.Kernel.Points
import proofs.«111329_j10806137717145_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole of each input block. -/
abbrev rX : Rect S128x1024 := Rect.unit (s := S128x1024) ![0, 0] S128x1024.size inb_S128x1024_S128x1024_0_0
abbrev rP : Rect S128x2048 := Rect.unit (s := S128x2048) ![0, 0] S128x2048.size inb_S128x2048_S128x2048_0_0
abbrev rWi : Rect S2048x1024 := Rect.unit (s := S2048x1024) ![0, 0] S2048x1024.size inb_S2048x1024_S2048x1024_0_0
abbrev rWr : Rect S2048x2048 := Rect.unit (s := S2048x2048) ![0, 0] S2048x2048.size inb_S2048x2048_S2048x2048_0_0
abbrev rWg : Rect S6144x1024 := Rect.unit (s := S6144x1024) ![0, 0] S6144x1024.size inb_S6144x1024_S6144x1024_0_0
/-- The result block's state columns 0 … 2047 and its padding columns 2048 … 2559. -/
abbrev rState : Rect S128x2560 := Rect.unit (s := S128x2560) ![0, 0] S128x2048.size inb_S128x2560_S128x2048_0_0
abbrev rPad : Rect S128x2560 := Rect.unit (s := S128x2560) ![0, 2048] S128x512.size inb_S128x2560_S128x512_0_2048

/-! ## What the body leaves in the result's staging buffer -/

/-- The result block after the body, from the five input blocks: the zero store over the padding columns and,
    before it, the state store over the state columns (later store first). -/
def out5 (x0 : Vec F S128x1024 .f32) (x1 : Vec F S128x2048 .f32) (x2 : Vec F S2048x1024 .bf16) (x3 : Vec F S2048x2048 .bf16)
    (x4 : Vec F S6144x1024 .bf16) : Vec F S128x2560 .f32 :=
  View.canon [⟨rPad, k0_pay2 (F := F)⟩,
    ⟨rState, k0_pay1 (View.ld x0 rX) (View.ld x1 rP) (View.ld x2 rWi) (View.ld x3 rWr) (View.ld x4 rWg)⟩]

/-- The two stores cover the block: a column is below 2048 or it is not. -/
theorem cover5 (p2 : Vec F S128x512 .f32) (p1 : Vec F S128x2048 .f32) (y : S128x2560.Idx) :
    ∃ pc ∈ ([⟨rPad, p2⟩, ⟨rState, p1⟩] : List (View.Piece (Elt F) S128x2560 .f32)), y ∈ pc.1.set :=
  by
  have h0 : (y 0).val < 128 := (y 0).isLt
  have h1 : (y 1).val < 2560 := (y 1).isLt
  by_cases h : (y 1).val < 2048
  · refine ⟨⟨rState, p1⟩, List.mem_cons_of_mem _ (List.mem_singleton.mpr rfl), ?_⟩
    show y ∈ rState.set
    rw [Rect.mem_set_unit]
    intro a
    match a with
    | ⟨0, _⟩ => exact ⟨Nat.zero_le _, by show (y 0).val < 0 + 128; omega⟩
    | ⟨1, _⟩ => exact ⟨Nat.zero_le _, by show (y 1).val < 0 + 2048; omega⟩
  · refine ⟨⟨rPad, p2⟩, List.mem_cons_self, ?_⟩
    show y ∈ rPad.set
    rw [Rect.mem_set_unit]
    intro a
    match a with
    | ⟨0, _⟩ => exact ⟨Nat.zero_le _, by show (y 0).val < 0 + 128; omega⟩
    | ⟨1, _⟩ => exact ⟨by show 2048 ≤ (y 1).val; omega, by show (y 1).val < 2048 + 512; omega⟩

/-! ## The body's triple -/

set_option maxHeartbeats 1000000 in
/-- The kernel body on whole staging memrefs, the five inputs' at contents `x0 … x4` and the result's at anything,
    runs to a continuation that holds the inputs' as they were and the result's at `out5` of them: five whole
    loads, two dead loads of the result's buffer, and the two stores, which cover the buffer (`cover5`). -/
theorem sound_kernel (c : Dev nD) (E : Set ℕ) (i : grid0.Coords)
    (arg1 : Memref sig .tc .vmem S128x1024 .f32) (harg1 : arg1.IsWhole) (arg2 : Memref sig .tc .vmem S128x2048 .f32) (harg2 : arg2.IsWhole)
    (arg3 : Memref sig .tc .vmem S2048x1024 .bf16) (harg3 : arg3.IsWhole) (arg4 : Memref sig .tc .vmem S2048x2048 .bf16) (harg4 : arg4.IsWhole)
    (arg5 : Memref sig .tc .vmem S6144x1024 .bf16) (harg5 : arg5.IsWhole) (arg6 : Memref sig .tc .vmem S128x2560 .f32) (harg6 : arg6.IsWhole)
    (x0 : Vec F S128x1024 .f32) (x1 : Vec F S128x2048 .f32) (x2 : Vec F S2048x1024 .bf16) (x3 : Vec F S2048x2048 .bf16)
    (x4 : Vec F S6144x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

/-! ## The previous state's window is never cut -/

/-- At every grid point the previous state's block (128 rows at row 128·t, columns 0 … 2047) lies inside the
    4096 × 2560 array on both axes: the transfer moves all of it. -/
theorem uncut1 : ∀ (t : Fin cfg0.N) (a : Fin 2), (cfg0.win 1).clip (cfg0.grid.coords t) a = none :=
  (by decide +kernel : ∀ (t : Fin grid0.N) (a : Fin 2), win0_1.clip (grid0.coords t) a = none)

/-- The previous state's staging buffer at point `t`: its block read off the array as the region finds it, laid
    out on the full block shape. Nothing is cut, so the filler is read nowhere (`pblk_any`). -/
def pblk (c : Dev nD) (t : Fin cfg0.N) : Vec F S128x2048 .f32 :=
  win0_1.fill (grid0.coords t) (fun _ => Scalar.ofBits .f32 0#32) (iblk m c 1 t)

theorem pblk_any (c : Dev nD) (t : Fin cfg0.N) (d : S128x2048.Idx → Elt F .f32) :
    win0_1.fill (grid0.coords t) d (iblk m c 1 t) = pblk m c t :=
  Pipeline.fill_of_clip_none (cfg := cfg0) 1 (grid0.coords t) (uncut1 t) _ _ _

/-! ## The pipeline's proof data -/

/-- On core `c`: the arrays as the region finds them; after the body at point `t` each input's buffer at its block
    and the result's at `out5` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => pblk m c t
    | ⟨2, _⟩ => iblk m c 2 t
    | ⟨3, _⟩ => iblk m c 3 t
    | ⟨4, _⟩ => iblk m c 4 t
    | ⟨5, _⟩ => out5 (iblk m c 0 t) (pblk m c t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = pblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (pblk m c t) (iblk m c 2 t) (iblk m c 3 t) (iblk m c 4 t) := by
  dsimp only [dats]

/-- Each input's current staging buffer holds its block when the body runs, fetched at that point or kept. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The previous state's window is fetched at every point, and the fetch fills the whole buffer. -/
theorem before0_1 (c : Dev nD) (t : Fin cfg0.N) (d) : (dats m 0 c).before 1 t d = pblk m c t := by
  rw [(dats m 0 c).before_fetched 1 t (fetch0_1 t)]
  unfold Dat.fetched Dat.blockOf
  rw [A_eq]
  exact pblk_any m c t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the previous state's buffer, whose window is stated up to its moved part, at some
    contents that agree with its block there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (pblk m c t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists (pblk m c t)
    rw [(cfg0.win 1).fill_cut]
    iexact H1
  isplitl [H2]; · iexact H2
  isplitl [H3]; · iexact H3
  isplitl [H4]; · iexact H4
  iexact H5

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.FrameIdeal.lean ====
/-
  The frame of the reservoir kernel's one pallas_call, at any float instance: every weakly fair execution of the
  program terminates without a fault and leaves its five argument arrays as they were; and, for the value claim,
  what each staging buffer holds after the body at every grid point.

  The grid has 32 points; point t stages rows 128·t … 128·t+127 of the inputs (all 1024 columns) and of the previous
  state (its first 2048 of 2560 columns), the three weight matrices whole (fetched once), and writes back rows
  128·t … 128·t+127 of the result (all 2560 columns). The body loads the five input blocks whole, computes the new
  state block, stores it into columns 0 … 2047 of the result's block and zeros into columns 2048 … 2559: the two
  stores together cover the block, so the block after the body is a function of the five loaded blocks alone
  (`out5`). The previous state's window is declared with a block width (2048) that does not divide the array's
  (2560), but its index map only ever names block column 0, so no block reaches past the array: nothing is cut
  at any grid point (`uncut1`), and the staging buffer holds the whole block whatever it held before the fetch.
-/
import proofs.«111329_j10806137717145_2_alg».proof.Proof.Gen.KernelIdeal.Launch
import proofs.«111329_j10806137717145_2_alg».proof.Proof.Gen.KernelIdeal.Skeleton
import proofs.«111329_j10806137717145_2_alg».proof.Proof.Gen.KernelIdeal.Points
import proofs.«111329_j10806137717145_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole of each input block. -/
abbrev rX : Rect S128x1024 := Rect.unit (s := S128x1024) ![0, 0] S128x1024.size inb_S128x1024_S128x1024_0_0
abbrev rP : Rect S128x2048 := Rect.unit (s := S128x2048) ![0, 0] S128x2048.size inb_S128x2048_S128x2048_0_0
abbrev rWi : Rect S2048x1024 := Rect.unit (s := S2048x1024) ![0, 0] S2048x1024.size inb_S2048x1024_S2048x1024_0_0
abbrev rWr : Rect S2048x2048 := Rect.unit (s := S2048x2048) ![0, 0] S2048x2048.size inb_S2048x2048_S2048x2048_0_0
abbrev rWg : Rect S6144x1024 := Rect.unit (s := S6144x1024) ![0, 0] S6144x1024.size inb_S6144x1024_S6144x1024_0_0
/-- The result block's state columns 0 … 2047 and its padding columns 2048 … 2559. -/
abbrev rState : Rect S128x2560 := Rect.unit (s := S128x2560) ![0, 0] S128x2048.size inb_S128x2560_S128x2048_0_0
abbrev rPad : Rect S128x2560 := Rect.unit (s := S128x2560) ![0, 2048] S128x512.size inb_S128x2560_S128x512_0_2048

/-! ## What the body leaves in the result's staging buffer -/

/-- The result block after the body, from the five input blocks: the zero store over the padding columns and,
    before it, the state store over the state columns (later store first). -/
def out5 (x0 : Vec F S128x1024 .f32) (x1 : Vec F S128x2048 .f32) (x2 : Vec F S2048x1024 .bf16) (x3 : Vec F S2048x2048 .bf16)
    (x4 : Vec F S6144x1024 .bf16) : Vec F S128x2560 .f32 :=
  View.canon [⟨rPad, k0_pay2 (F := F)⟩,
    ⟨rState, k0_pay1 (View.ld x0 rX) (View.ld x1 rP) (View.ld x2 rWi) (View.ld x3 rWr) (View.ld x4 rWg)⟩]

/-- The two stores cover the block: a column is below 2048 or it is not. -/
theorem cover5 (p2 : Vec F S128x512 .f32) (p1 : Vec F S128x2048 .f32) (y : S128x2560.Idx) :
    ∃ pc ∈ ([⟨rPad, p2⟩, ⟨rState, p1⟩] : List (View.Piece (Elt F) S128x2560 .f32)), y ∈ pc.1.set :=
  by
  have h0 : (y 0).val < 128 := (y 0).isLt
  have h1 : (y 1).val < 2560 := (y 1).isLt
  by_cases h : (y 1).val < 2048
  · refine ⟨⟨rState, p1⟩, List.mem_cons_of_mem _ (List.mem_singleton.mpr rfl), ?_⟩
    show y ∈ rState.set
    rw [Rect.mem_set_unit]
    intro a
    match a with
    | ⟨0, _⟩ => exact ⟨Nat.zero_le _, by show (y 0).val < 0 + 128; omega⟩
    | ⟨1, _⟩ => exact ⟨Nat.zero_le _, by show (y 1).val < 0 + 2048; omega⟩
  · refine ⟨⟨rPad, p2⟩, List.mem_cons_self, ?_⟩
    show y ∈ rPad.set
    rw [Rect.mem_set_unit]
    intro a
    match a with
    | ⟨0, _⟩ => exact ⟨Nat.zero_le _, by show (y 0).val < 0 + 128; omega⟩
    | ⟨1, _⟩ => exact ⟨by show 2048 ≤ (y 1).val; omega, by show (y 1).val < 2048 + 512; omega⟩

/-! ## The body's triple -/

set_option maxHeartbeats 1000000 in
/-- The kernel body on whole staging memrefs, the five inputs' at contents `x0 … x4` and the result's at anything,
    runs to a continuation that holds the inputs' as they were and the result's at `out5` of them: five whole
    loads, two dead loads of the result's buffer, and the two stores, which cover the buffer (`cover5`). -/
theorem sound_kernel (c : Dev nD) (E : Set ℕ) (i : grid0.Coords)
    (arg1 : Memref sig .tc .vmem S128x1024 .f32) (harg1 : arg1.IsWhole) (arg2 : Memref sig .tc .vmem S128x2048 .f32) (harg2 : arg2.IsWhole)
    (arg3 : Memref sig .tc .vmem S2048x1024 .bf16) (harg3 : arg3.IsWhole) (arg4 : Memref sig .tc .vmem S2048x2048 .bf16) (harg4 : arg4.IsWhole)
    (arg5 : Memref sig .tc .vmem S6144x1024 .bf16) (harg5 : arg5.IsWhole) (arg6 : Memref sig .tc .vmem S128x2560 .f32) (harg6 : arg6.IsWhole)
    (x0 : Vec F S128x1024 .f32) (x1 : Vec F S128x2048 .f32) (x2 : Vec F S2048x1024 .bf16) (x3 : Vec F S2048x2048 .bf16)
    (x4 : Vec F S6144x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

/-! ## The previous state's window is never cut -/

/-- At every grid point the previous state's block (128 rows at row 128·t, columns 0 … 2047) lies inside the
    4096 × 2560 array on both axes: the transfer moves all of it. -/
theorem uncut1 : ∀ (t : Fin cfg0.N) (a : Fin 2), (cfg0.win 1).clip (cfg0.grid.coords t) a = none :=
  (by decide +kernel : ∀ (t : Fin grid0.N) (a : Fin 2), win0_1.clip (grid0.coords t) a = none)

/-- The previous state's staging buffer at point `t`: its block read off the array as the region finds it, laid
    out on the full block shape. Nothing is cut, so the filler is read nowhere (`pblk_any`). -/
def pblk (c : Dev nD) (t : Fin cfg0.N) : Vec F S128x2048 .f32 :=
  win0_1.fill (grid0.coords t) (fun _ => Scalar.ofBits .f32 0#32) (iblk m c 1 t)

theorem pblk_any (c : Dev nD) (t : Fin cfg0.N) (d : S128x2048.Idx → Elt F .f32) :
    win0_1.fill (grid0.coords t) d (iblk m c 1 t) = pblk m c t :=
  Pipeline.fill_of_clip_none (cfg := cfg0) 1 (grid0.coords t) (uncut1 t) _ _ _

/-! ## The pipeline's proof data -/

/-- On core `c`: the arrays as the region finds them; after the body at point `t` each input's buffer at its block
    and the result's at `out5` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => pblk m c t
    | ⟨2, _⟩ => iblk m c 2 t
    | ⟨3, _⟩ => iblk m c 3 t
    | ⟨4, _⟩ => iblk m c 4 t
    | ⟨5, _⟩ => out5 (iblk m c 0 t) (pblk m c t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = pblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (pblk m c t) (iblk m c 2 t) (iblk m c 3 t) (iblk m c 4 t) := by
  dsimp only [dats]

/-- Each input's current staging buffer holds its block when the body runs, fetched at that point or kept. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The previous state's window is fetched at every point, and the fetch fills the whole buffer. -/
theorem before0_1 (c : Dev nD) (t : Fin cfg0.N) (d) : (dats m 0 c).before 1 t d = pblk m c t := by
  rw [(dats m 0 c).before_fetched 1 t (fetch0_1 t)]
  unfold Dat.fetched Dat.blockOf
  rw [A_eq]
  exact pblk_any m c t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the previous state's buffer, whose window is stated up to its moved part, at some
    contents that agree with its block there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (pblk m c t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists (pblk m c t)
    rw [(cfg0.win 1).fill_cut]
    iexact H1
  isplitl [H2]; · iexact H2
  isplitl [H3]; · iexact H3
  isplitl [H4]; · iexact H4
  iexact H5

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  The leaky gated reservoir update as one function of its arguments, over the extended reals.

  For one batch row with input row `xr` (1024 entries) and previous-state row `pr` (its first 2048 entries), and for
  a state coordinate `j < 2048`:
    gate n   = logistic (Σ_k xr k · W_gate[n, k])                      (n < 6144: input, forget and output gates)
    drive j  = Σ_k xr k · W_in[j, k] + Σ_k pr k · W_res[j, k]
    leaky j  = keep · (gate (2048 + j) · pr j) + leak · tanh (gate j · drive j)
    gated j  = gate (4096 + j) · leaky j
    state j  = gated j - thr   if gated j > thr,   else gated j          (spike and soft reset)
  The result array has 2560 columns: the state in the first 2048, zero in the remaining 512.
  `keep`, `leak`, `thr` are the f32 words of 0.9, 0.1 and 0.5, never evaluated: both programs carry the same words.
-/
import Idealize.ShloMosaic.PureOps.Ideal
import Idealize.ShloMosaic.Lib.ValueIdx

noncomputable section

namespace Cert.Reservoir

open Idealize.ShloMosaic Idealize.ShloMosaic.ValueIdx

/-- The three weight matrices' index types, and the two data arrays'. -/
abbrev SX : Shape := ⟨2, ![4096, 1024]⟩
abbrev SP : Shape := ⟨2, ![4096, 2560]⟩
abbrev SWin : Shape := ⟨2, ![2048, 1024]⟩
abbrev SWres : Shape := ⟨2, ![2048, 2048]⟩
abbrev SWgate : Shape := ⟨2, ![6144, 1024]⟩

/-- The retained fraction 1 - leak rate, the leak rate, and the spike threshold, as the f32 words both programs hold. -/
abbrev keep : EReal := Ideal.ofBits .f32 0x3F666666#32
abbrev leak : EReal := Ideal.ofBits .f32 0x3DCCCCCD#32
abbrev thr : EReal := Ideal.ofBits .f32 0x3F000000#32

/-- Coordinate `j` of the state shifted into the forget gates' columns `2048 ≤ n < 4096` and the output gates'
    `4096 ≤ n < 6144`, and `j` itself as an input gate's column. -/
abbrev colI (j : Fin 2048) : Fin 6144 := ⟨j.val, by omega⟩
abbrev colF (j : Fin 2048) : Fin 6144 := ⟨2048 + j.val, by omega⟩
abbrev colO (j : Fin 2048) : Fin 6144 := ⟨4096 + j.val, by omega⟩

section Row

variable (xr : Fin 1024 → EReal) (pr : Fin 2048 → EReal)
  (wi : SWin.Idx → EReal) (wr : SWres.Idx → EReal) (wg : SWgate.Idx → EReal)

/-- Gate `n` of the row: the logistic of the row's product with row `n` of the gate weights. -/
def gate (n : Fin 6144) : EReal := Ideal.logistic (∑ k : Fin 1024, xr k * wg (ix2 n k))

/-- The row's input drive plus its recurrent drive at coordinate `j`. -/
def drive (j : Fin 2048) : EReal :=
  (∑ k : Fin 1024, xr k * wi (ix2 j k)) + (∑ k : Fin 2048, pr k * wr (ix2 j k))

/-- The leaky mix of the forgotten previous state and the squashed gated drive. -/
def leaky (j : Fin 2048) : EReal :=
  keep * (gate xr wg (colF j) * pr j) + leak * Ideal.tanh (gate xr wg (colI j) * drive xr pr wi wr j)

/-- The output-gated state before the spike rule. -/
def gated (j : Fin 2048) : EReal := gate xr wg (colO j) * leaky xr pr wi wr wg j

/-- Spike and soft reset: a value above the threshold loses the threshold. -/
def spike (s : EReal) : EReal := Scalar.select (Ideal.cmp .ogt s thr) (s - thr) s

/-- The new state of the row at coordinate `j`. -/
def stateRow (j : Fin 2048) : EReal := spike (gated xr pr wi wr wg j)

end Row

/-- Row `b` of the input array, and the first 2048 entries of row `b` of the previous state. -/
abbrev rowX (x : SX.Idx → EReal) (b : Fin 4096) : Fin 1024 → EReal := fun k => x (ix2 b k)
abbrev rowP (p : SP.Idx → EReal) (b : Fin 4096) : Fin 2048 → EReal := fun k => p (ix2 b (⟨k.val, by omega⟩ : Fin 2560))

/-- The whole result: the new state in the first 2048 columns, zero in the padding columns. -/
def G (x : SX.Idx → EReal) (p : SP.Idx → EReal) (wi : SWin.Idx → EReal) (wr : SWres.Idx → EReal) (wg : SWgate.Idx → EReal) :
    SP.Idx → EReal := fun i =>
  if h : (i 1).val < 2048 then stateRow (rowX x (i 0)) (rowP p (i 0)) wi wr wg ⟨(i 1).val, h⟩ else 0

theorem G_state (x : SX.Idx → EReal) (p : SP.Idx → EReal) (wi : SWin.Idx → EReal) (wr : SWres.Idx → EReal) (wg : SWgate.Idx → EReal)
    (b : Fin 4096) (j : Fin 2048) :
    G x p wi wr wg (ix2 b (⟨j.val, by omega⟩ : Fin 2560)) = stateRow (rowX x b) (rowP p b) wi wr wg j := by
  unfold G
  rw [dif_pos (show ((ix2 b (⟨j.val, by omega⟩ : Fin 2560) : SP.Idx) 1).val < 2048 from j.isLt)]

theorem G_pad (x : SX.Idx → EReal) (p : SP.Idx → EReal) (wi : SWin.Idx → EReal) (wr : SWres.Idx → EReal) (wg : SWgate.Idx → EReal)
    (i : SP.Idx) (h : ¬ (i 1).val < 2048) : G x p wi wr wg i = 0 := by
  unfold G
  rw [dif_neg h]

end Cert.Reservoir

end
-- ==== Proof.PayloadAt.lean ====
import proofs.«111329_j10806137717145_2_alg».proof.Proof.Gen.KernelIdeal.Skeleton
import proofs.«111329_j10806137717145_2_alg».proof.Proof.Spec
import Idealize.ShloMosaic.PureOps.Ideal.Laws
import Idealize.ShloMosaic.Lib.ValueIdx
import Idealize.ShloMosaic.Lib.Pipeline.Value

/-
  The kernel body's stored values, read at an index, against the specification.

  The body computes, from the five loaded blocks, three products that contract the second axis of both operands
  (input drive, recurrent drive, and the 6144 gate pre-activations), the logistic of the last, its three column
  slices, and pointwise arithmetic. Over the extended reals rounding to bf16 is the identity, a product read at
  `(r, n)` is the sum over `k` of left `(r, k)` times right `(n, k)`, and each pointwise operation is the scalar
  one at each index: so the stored value at `(r, j)` is the specification's `stateRow` of row `r` at `j`, and the
  padding block is zero.
-/

noncomputable section

namespace Cert.Reservoir.Kern

open Cert.KernelIdeal Cert.Reservoir Idealize.ShloMosaic Idealize.ShloMosaic.ValueIdx

/-- The product read at output `(r, n)`: both operands contract their second axis, so it is the sum over `k` of
    the left operand at `(r, k)` times the right operand at `(n, k)`. -/
theorem mm_in (lhs : FVec Ideal S128x1024 .bf16) (rhs : FVec Ideal S2048x1024 .bf16) (r : Fin 128) (n : Fin 2048) :
    FloatOps.matmul dot_S128x1024_S2048x1024_S128x2048_1_1_0_0_n_n none lhs rhs (constant S128x2048 .f32 0x00000000#32) (ix2 r n)
      = ∑ k : Fin 1024, lhs (ix2 r k) * rhs (ix2 n k) := by
  rw [Ideal.matmul_constant_zero_apply, ← Equiv.sum_comp (contrEquiv1 dot_S128x1024_S2048x1024_S128x2048_1_1_0_0_n_n 1024 rfl rfl).symm]
  refine Finset.sum_congr rfl fun k _ => ?_
  have hk := contrEquiv1_symm_val dot_S128x1024_S2048x1024_S128x2048_1_1_0_0_n_n 1024 rfl rfl k
  have l0 : ∀ q : (dot_S128x1024_S2048x1024_S128x2048_1_1_0_0_n_n).contr.Idx, ((dot_S128x1024_S2048x1024_S128x2048_1_1_0_0_n_n).lhsIdx (ix2 r n) q 0).val = r.val := fun q => by
    unfold DotDims.lhsIdx
    rw [dif_neg (show ¬(0 : Fin S128x1024.rank) ∈ (dot_S128x1024_S2048x1024_S128x2048_1_1_0_0_n_n).lhsBatch by decide), dif_pos (show (0 : Fin S128x1024.rank) ∈ (dot_S128x1024_S2048x1024_S128x2048_1_1_0_0_n_n).lhsNonContracting by decide)]
    rfl
  have r0 : ∀ q : (dot_S128x1024_S2048x1024_S128x2048_1_1_0_0_n_n).contr.Idx, ((dot_S128x1024_S2048x1024_S128x2048_1_1_0_0_n_n).rhsIdx (ix2 r n) q 0).val = n.val := fun q => by
    unfold DotDims.rhsIdx
    rw [dif_neg (show ¬(0 : Fin S2048x1024.rank) ∈ (dot_S128x1024_S2048x1024_S128x2048_1_1_0_0_n_n).rhsBatch by decide), dif_pos (show (0 : Fin S2048x1024.rank) ∈ (dot_S128x1024_S2048x1024_S128x2048_1_1_0_0_n_n).rhsNonContracting by decide)]
    rfl
  have el : (dot_S128x1024_S2048x1024_S128x2048_1_1_0_0_n_n).lhsIdx (ix2 r n) ((contrEquiv1 dot_S128x1024_S2048x1024_S128x2048_1_1_0_0_n_n 1024 rfl rfl).symm k) = ix2 r k := funext fun a => Fin.ext (by
    match a with
    | ⟨0, _⟩ => exact l0 _
    | ⟨1, _⟩ => exact ((dot_S128x1024_S2048x1024_S128x2048_1_1_0_0_n_n).lhsIdx_val_of_single rfl _ _).trans hk)
  have er : (dot_S128x1024_S2048x1024_S128x2048_1_1_0_0_n_n).rhsIdx (ix2 r n) ((contrEquiv1 dot_S128x1024_S2048x1024_S128x2048_1_1_0_0_n_n 1024 rfl rfl).symm k) = ix2 n k := funext fun a => Fin.ext (by
    match a with
    | ⟨0, _⟩ => exact r0 _
    | ⟨1, _⟩ => exact ((dot_S128x1024_S2048x1024_S128x2048_1_1_0_0_n_n).rhsIdx_val_of_single rfl _ _).trans hk)
  rw [el, er]

/-- The product read at output `(r, n)`: both operands contract their second axis, so it is the sum over `k` of
    the left operand at `(r, k)` times the right operand at `(n, k)`. -/
theorem mm_res (lhs : FVec Ideal S128x2048 .bf16) (rhs : FVec Ideal S2048x2048 .bf16) (r : Fin 128) (n : Fin 2048) :
    FloatOps.matmul dot_S128x2048_S2048x2048_S128x2048_1_1_0_0_n_n none lhs rhs (constant S128x2048 .f32 0x00000000#32) (ix2 r n)
      = ∑ k : Fin 2048, lhs (ix2 r k) * rhs (ix2 n k) := by
  rw [Ideal.matmul_constant_zero_apply, ← Equiv.sum_comp (contrEquiv1 dot_S128x2048_S2048x2048_S128x2048_1_1_0_0_n_n 2048 rfl rfl).symm]
  refine Finset.sum_congr rfl fun k _ => ?_
  have hk := contrEquiv1_symm_val dot_S128x2048_S2048x2048_S128x2048_1_1_0_0_n_n 2048 rfl rfl k
  have l0 : ∀ q : (dot_S128x2048_S2048x2048_S128x2048_1_1_0_0_n_n).contr.Idx, ((dot_S128x2048_S2048x2048_S128x2048_1_1_0_0_n_n).lhsIdx (ix2 r n) q 0).val = r.val := fun q => by
    unfold DotDims.lhsIdx
    rw [dif_neg (show ¬(0 : Fin S128x2048.rank) ∈ (dot_S128x2048_S2048x2048_S128x2048_1_1_0_0_n_n).lhsBatch by decide), dif_pos (show (0 : Fin S128x2048.rank) ∈ (dot_S128x2048_S2048x2048_S128x2048_1_1_0_0_n_n).lhsNonContracting by decide)]
    rfl
  have r0 : ∀ q : (dot_S128x2048_S2048x2048_S128x2048_1_1_0_0_n_n).contr.Idx, ((dot_S128x2048_S2048x2048_S128x2048_1_1_0_0_n_n).rhsIdx (ix2 r n) q 0).val = n.val := fun q => by
    unfold DotDims.rhsIdx
    rw [dif_neg (show ¬(0 : Fin S2048x2048.rank) ∈ (dot_S128x2048_S2048x2048_S128x2048_1_1_0_0_n_n).rhsBatch by decide), dif_pos (show (0 : Fin S2048x2048.rank) ∈ (dot_S128x2048_S2048x2048_S128x2048_1_1_0_0_n_n).rhsNonContracting by decide)]
    rfl
  have el : (dot_S128x2048_S2048x2048_S128x2048_1_1_0_0_n_n).lhsIdx (ix2 r n) ((contrEquiv1 dot_S128x2048_S2048x2048_S128x2048_1_1_0_0_n_n 2048 rfl rfl).symm k) = ix2 r k := funext fun a => Fin.ext (by
    match a with
    | ⟨0, _⟩ => exact l0 _
    | ⟨1, _⟩ => exact ((dot_S128x2048_S2048x2048_S128x2048_1_1_0_0_n_n).lhsIdx_val_of_single rfl _ _).trans hk)
  have er : (dot_S128x2048_S2048x2048_S128x2048_1_1_0_0_n_n).rhsIdx (ix2 r n) ((contrEquiv1 dot_S128x2048_S2048x2048_S128x2048_1_1_0_0_n_n 2048 rfl rfl).symm k) = ix2 n k := funext fun a => Fin.ext (by
    match a with
    | ⟨0, _⟩ => exact r0 _
    | ⟨1, _⟩ => exact ((dot_S128x2048_S2048x2048_S128x2048_1_1_0_0_n_n).rhsIdx_val_of_single rfl _ _).trans hk)
  rw [el, er]

/-- The product read at output `(r, n)`: both operands contract their second axis, so it is the sum over `k` of
    the left operand at `(r, k)` times the right operand at `(n, k)`. -/
theorem mm_gate (lhs : FVec Ideal S128x1024 .bf16) (rhs : FVec Ideal S6144x1024 .bf16) (r : Fin 128) (n : Fin 6144) :
    FloatOps.matmul dot_S128x1024_S6144x1024_S128x6144_1_1_0_0_n_n none lhs rhs (constant S128x6144 .f32 0x00000000#32) (ix2 r n)
      = ∑ k : Fin 1024, lhs (ix2 r k) * rhs (ix2 n k) := by
  rw [Ideal.matmul_constant_zero_apply, ← Equiv.sum_comp (contrEquiv1 dot_S128x1024_S6144x1024_S128x6144_1_1_0_0_n_n 1024 rfl rfl).symm]
  refine Finset.sum_congr rfl fun k _ => ?_
  have hk := contrEquiv1_symm_val dot_S128x1024_S6144x1024_S128x6144_1_1_0_0_n_n 1024 rfl rfl k
  have l0 : ∀ q : (dot_S128x1024_S6144x1024_S128x6144_1_1_0_0_n_n).contr.Idx, ((dot_S128x1024_S6144x1024_S128x6144_1_1_0_0_n_n).lhsIdx (ix2 r n) q 0).val = r.val := fun q => by
    unfold DotDims.lhsIdx
    rw [dif_neg (show ¬(0 : Fin S128x1024.rank) ∈ (dot_S128x1024_S6144x1024_S128x6144_1_1_0_0_n_n).lhsBatch by decide), dif_pos (show (0 : Fin S128x1024.rank) ∈ (dot_S128x1024_S6144x1024_S128x6144_1_1_0_0_n_n).lhsNonContracting by decide)]
    rfl
  have r0 : ∀ q : (dot_S128x1024_S6144x1024_S128x6144_1_1_0_0_n_n).contr.Idx, ((dot_S128x1024_S6144x1024_S128x6144_1_1_0_0_n_n).rhsIdx (ix2 r n) q 0).val = n.val := fun q => by
    unfold DotDims.rhsIdx
    rw [dif_neg (show ¬(0 : Fin S6144x1024.rank) ∈ (dot_S128x1024_S6144x1024_S128x6144_1_1_0_0_n_n).rhsBatch by decide), dif_pos (show (0 : Fin S6144x1024.rank) ∈ (dot_S128x1024_S6144x1024_S128x6144_1_1_0_0_n_n).rhsNonContracting by decide)]
    rfl
  have el : (dot_S128x1024_S6144x1024_S128x6144_1_1_0_0_n_n).lhsIdx (ix2 r n) ((contrEquiv1 dot_S128x1024_S6144x1024_S128x6144_1_1_0_0_n_n 1024 rfl rfl).symm k) = ix2 r k := funext fun a => Fin.ext (by
    match a with
    | ⟨0, _⟩ => exact l0 _
    | ⟨1, _⟩ => exact ((dot_S128x1024_S6144x1024_S128x6144_1_1_0_0_n_n).lhsIdx_val_of_single rfl _ _).trans hk)
  have er : (dot_S128x1024_S6144x1024_S128x6144_1_1_0_0_n_n).rhsIdx (ix2 r n) ((contrEquiv1 dot_S128x1024_S6144x1024_S128x6144_1_1_0_0_n_n 1024 rfl rfl).symm k) = ix2 n k := funext fun a => Fin.ext (by
    match a with
    | ⟨0, _⟩ => exact r0 _
    | ⟨1, _⟩ => exact ((dot_S128x1024_S6144x1024_S128x6144_1_1_0_0_n_n).rhsIdx_val_of_single rfl _ _).trans hk)
  rw [el, er]

/-- A slice of the gate block at column offset 0 reads the gate block at the input gate's column. -/
theorem sliceI_apply (g : FVec Ideal S128x6144 .f32) (h : S128x6144.Slices ![0, 0] S128x2048) (r : Fin 128) (j : Fin 2048) :
    extractStridedSlice S128x2048 ![0, 0] g h (ix2 r j) = g (ix2 r (colI j)) :=
  extractStridedSlice_apply ![0, 0] g h (ix2 r j) (ix2 r (colI j)) (fun a => match a with
    | ⟨0, _⟩ => by show r.val = 0 + r.val; omega
    | ⟨1, _⟩ => by show j.val = 0 + j.val; omega)

/-- At column offset 2048: the forget gate's column. -/
theorem sliceF_apply (g : FVec Ideal S128x6144 .f32) (h : S128x6144.Slices ![0, 2048] S128x2048) (r : Fin 128) (j : Fin 2048) :
    extractStridedSlice S128x2048 ![0, 2048] g h (ix2 r j) = g (ix2 r (colF j)) :=
  extractStridedSlice_apply ![0, 2048] g h (ix2 r j) (ix2 r (colF j)) (fun a => match a with
    | ⟨0, _⟩ => by show r.val = 0 + r.val; omega
    | ⟨1, _⟩ => by show 2048 + j.val = 2048 + j.val; rfl)

/-- At column offset 4096: the output gate's column. -/
theorem sliceO_apply (g : FVec Ideal S128x6144 .f32) (h : S128x6144.Slices ![0, 4096] S128x2048) (r : Fin 128) (j : Fin 2048) :
    extractStridedSlice S128x2048 ![0, 4096] g h (ix2 r j) = g (ix2 r (colO j)) :=
  extractStridedSlice_apply ![0, 4096] g h (ix2 r j) (ix2 r (colO j)) (fun a => match a with
    | ⟨0, _⟩ => by show r.val = 0 + r.val; omega
    | ⟨1, _⟩ => by show 4096 + j.val = 4096 + j.val; rfl)

/-- The gate block at `(r, n)` is the specification's gate `n` of row `r`: rounding to bf16 is the identity on
    the extended reals and the shape cast is to the same shape. -/
theorem gate_apply (v0 : FVec Ideal S128x1024 .f32) (v10 : FVec Ideal S6144x1024 .bf16)
    (h1 : FTy.bits .bf16 < FTy.bits .f32) (h2 : S6144x1024.ShapeCasts S6144x1024) (r : Fin 128) (n : Fin 6144) :
    logistic (FloatOps.matmul dot_S128x1024_S6144x1024_S128x6144_1_1_0_0_n_n none (truncf .bf16 v0 h1)
        (shapeCast S6144x1024 v10 h2) (constant S128x6144 .f32 0x00000000#32)) (ix2 r n)
      = gate (fun k : Fin 1024 => v0 (ix2 r k)) v10 n := by
  rw [shapeCast_self]
  exact congrArg Ideal.logistic (mm_gate (truncf .bf16 v0 h1) v10 r n)

/-- The input drive at `(r, j)`. -/
theorem drive_in_apply (v0 : FVec Ideal S128x1024 .f32) (v4 : FVec Ideal S2048x1024 .bf16)
    (h1 : FTy.bits .bf16 < FTy.bits .f32) (h2 : S2048x1024.ShapeCasts S2048x1024) (r : Fin 128) (j : Fin 2048) :
    FloatOps.matmul dot_S128x1024_S2048x1024_S128x2048_1_1_0_0_n_n none (truncf .bf16 v0 h1)
        (shapeCast S2048x1024 v4 h2) (constant S128x2048 .f32 0x00000000#32) (ix2 r j)
      = ∑ k : Fin 1024, v0 (ix2 r k) * v4 (ix2 j k) := by
  rw [shapeCast_self]
  exact mm_in (truncf .bf16 v0 h1) v4 r j

/-- The recurrent drive at `(r, j)`. -/
theorem drive_res_apply (v1 : FVec Ideal S128x2048 .f32) (v7 : FVec Ideal S2048x2048 .bf16)
    (h1 : FTy.bits .bf16 < FTy.bits .f32) (h2 : S2048x2048.ShapeCasts S2048x2048) (r : Fin 128) (j : Fin 2048) :
    FloatOps.matmul dot_S128x2048_S2048x2048_S128x2048_1_1_0_0_n_n none (truncf .bf16 v1 h1)
        (shapeCast S2048x2048 v7 h2) (constant S128x2048 .f32 0x00000000#32) (ix2 r j)
      = ∑ k : Fin 2048, v1 (ix2 r k) * v7 (ix2 j k) := by
  rw [shapeCast_self]
  exact mm_res (truncf .bf16 v1 h1) v7 r j

/-- The body's pointwise arithmetic at one index, from what its five vector operands are there: every operation of
    it is the scalar operation at each index, and at the extended reals the scalar operations are the field's. -/
theorem body_at (gI gF gO m1 m2 p : FVec Ideal S128x2048 .f32) (i : S128x2048.Idx) (a b c d e : EReal)
    (hI : gI i = a) (hF : gF i = b) (hO : gO i = c) (h1 : m1 i = d) (h2 : m2 i = e) :
    select
      (cmpf .ogt
        (mulf gO (addf (mulf (broadcast S128x2048 (Scalar.ofBits .f32 0x3F666666#32)) (mulf gF p))
          (mulf (broadcast S128x2048 (Scalar.ofBits .f32 0x3DCCCCCD#32)) (tanh (mulf gI (addf m1 m2))))))
        (broadcast S128x2048 (Scalar.ofBits .f32 0x3F000000#32)))
      (subf
        (mulf gO (addf (mulf (broadcast S128x2048 (Scalar.ofBits .f32 0x3F666666#32)) (mulf gF p))
          (mulf (broadcast S128x2048 (Scalar.ofBits .f32 0x3DCCCCCD#32)) (tanh (mulf gI (addf m1 m2))))))
        (broadcast S128x2048 (Scalar.ofBits .f32 0x3F000000#32)))
      (mulf gO (addf (mulf (broadcast S128x2048 (Scalar.ofBits .f32 0x3F666666#32)) (mulf gF p))
          (mulf (broadcast S128x2048 (Scalar.ofBits .f32 0x3DCCCCCD#32)) (tanh (mulf gI (addf m1 m2)))))) i
      = spike (c * (keep * (b * p i) + leak * Ideal.tanh (a * (d + e)))) := by
  subst hI hF hO h1 h2
  rfl

/-- The first stored block at `(r, j)` is the specification's new state of row `r` at coordinate `j`. -/
theorem pay1_apply (v0 : Vec Ideal S128x1024 .f32) (v1 : Vec Ideal S128x2048 .f32) (v4 : Vec Ideal S2048x1024 .bf16) (v7 : Vec Ideal S2048x2048 .bf16) (v10 : Vec Ideal S6144x1024 .bf16) (r : Fin 128) (j : Fin 2048) :
    Cert.KernelIdeal.Gen.k0_pay1 (F := Ideal) v0 v1 v4 v7 v10 (ix2 r j)
      = stateRow (fun k : Fin 1024 => v0 (ix2 r k)) (fun k : Fin 2048 => v1 (ix2 r k)) v4 v7 v10 j := by
  unfold Gen.k0_pay1
  unfold stateRow gated leaky drive
  exact body_at _ _ _ _ _ _ (ix2 r j) _ _ _ _ _
    ((sliceI_apply _ _ r j).trans (gate_apply v0 v10 _ _ r (colI j)))
    ((sliceF_apply _ _ r j).trans (gate_apply v0 v10 _ _ r (colF j)))
    ((sliceO_apply _ _ r j).trans (gate_apply v0 v10 _ _ r (colO j)))
    (drive_in_apply v0 v4 _ _ r j)
    (drive_res_apply v1 v7 _ _ r j)

/-- The second stored block is the zero splat. -/
theorem pay2_apply (y : S128x512.Idx) : Cert.KernelIdeal.Gen.k0_pay2 (F := Ideal) y = 0 := by
  unfold Gen.k0_pay2
  exact Ideal.ofBits_zero_f32

end Cert.Reservoir.Kern

end
-- ==== Proof.KernelValue.lean ====
/-
  The result array of the reservoir kernel after its run, at the ideal instance, as the specification's function
  of the launch memory.

  After the body at grid point t the result's staging block holds, at row r and column q, the new state of batch
  row 128·t + r at coordinate q when q < 2048, and zero otherwise: the state store's payload read at an index is the
  specification's `stateRow` of row r of the two data blocks, and the padding store writes zeros. Row r of the
  data blocks at point t is row 128·t + r of the arrays; the weight blocks are the whole weight arrays, rounded to
  bf16 before the call, which at the ideal instance changes nothing. The 32 result blocks tile the 4096 rows, so the
  array ends at the specification's `G`.
-/
import proofs.«111329_j10806137717145_2_alg».proof.Proof.FrameIdeal
import proofs.«111329_j10806137717145_2_alg».proof.Proof.PayloadAt
import proofs.«111329_j10806137717145_2_alg».proof.Proof.Spec
import Idealize.ShloMosaic.Lib.Pipeline.Value
import Idealize.ShloMosaic.Lib.StableHlo.Run

set_option maxRecDepth 16384

noncomputable section

namespace Cert.KernelIdeal.RunValue

open Cert.KernelIdeal Cert.KernelIdeal.Gen Cert.KernelIdeal.Body Cert.Reservoir Cert.Reservoir.Kern
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The result block as a function of the five loaded blocks -/

/-- Entry (r, q) of the result block: the new state of the block's row r at coordinate q, or the zero padding. -/
def blockAt (x0 : Vec Ideal S128x1024 .f32) (x1 : Vec Ideal S128x2048 .f32) (x2 : Vec Ideal S2048x1024 .bf16)
    (x3 : Vec Ideal S2048x2048 .bf16) (x4 : Vec Ideal S6144x1024 .bf16) (r : Fin 128) (q : Fin 2560) : EReal :=
  if h : q.val < 2048 then
    stateRow (fun k : Fin 1024 => x0 (ix2 r k)) (fun k : Fin 2048 => x1 (ix2 r k)) x2 x3 x4 ⟨q.val, h⟩
  else 0

def blockFn (x0 : Vec Ideal S128x1024 .f32) (x1 : Vec Ideal S128x2048 .f32) (x2 : Vec Ideal S2048x1024 .bf16)
    (x3 : Vec Ideal S2048x2048 .bf16) (x4 : Vec Ideal S6144x1024 .bf16) : S128x2560.Idx → EReal :=
  fun y => blockAt x0 x1 x2 x3 x4 (y 0) (y 1)

/-- What the two stores leave is that function: each store's payload is its tile of it. -/
theorem out5_eq (x0 : Vec Ideal S128x1024 .f32) (x1 : Vec Ideal S128x2048 .f32) (x2 : Vec Ideal S2048x1024 .bf16)
    (x3 : Vec Ideal S2048x2048 .bf16) (x4 : Vec Ideal S6144x1024 .bf16) :
    out5 (F := Ideal) x0 x1 x2 x3 x4 = blockFn x0 x1 x2 x3 x4 := by
  funext y
  unfold out5
  refine View.canon_apply_of_pieces (Val := Elt Ideal) (e := .f32) (blockFn x0 x1 x2 x3 x4) _ ?_ y (cover5 _ _ y)
  intro p hp x
  rcases List.mem_cons.mp hp with rfl | hp
  · -- the padding store: zeros, at columns 2048 + x₁
    show k0_pay2 (F := Ideal) x = blockFn x0 x1 x2 x3 x4 (rPad.emb x)
    rw [pay2_apply]
    unfold blockFn blockAt
    rw [dif_neg]
    show ¬ ((rPad.emb x 1 : Nat) < 2048)
    rw [Rect.emb_apply]
    show ¬ (2048 + 1 * (x 1).val < 2048)
    omega
  · -- the state store, at the same coordinates
    obtain rfl := List.mem_singleton.mp hp
    obtain ⟨r, j, rfl⟩ : ∃ (r : Fin 128) (j : Fin 2048), x = ix2 r j := ⟨x 0, x 1, eq_ix2 x⟩
    show k0_pay1 (F := Ideal) (View.ld x0 rX) (View.ld x1 rP) (View.ld x2 rWi) (View.ld x3 rWr) (View.ld x4 rWg) (ix2 r j)
      = blockFn x0 x1 x2 x3 x4 (rState.emb (ix2 r j))
    rw [pay1_apply]
    simp only [View.ld_unit_zero (S := S128x1024) hz, View.ld_unit_zero (S := S128x2048) hz,
      View.ld_unit_zero (S := S2048x1024) hz, View.ld_unit_zero (S := S2048x2048) hz, View.ld_unit_zero (S := S6144x1024) hz]
    have e : rState.emb (ix2 r j) = ix2 r (⟨j.val, by omega⟩ : Fin 2560) := funext fun a => Fin.ext (by
      match a with
      | ⟨0, _⟩ => show 0 + 1 * r.val = r.val; omega
      | ⟨1, _⟩ => show 0 + 1 * j.val = j.val; omega)
    have l0 : View.ld x0 rX = x0 := View.ld_unit_zero (S := S128x1024) hz _ x0
    have l1 : View.ld x1 rP = x1 := View.ld_unit_zero (S := S128x2048) hz _ x1
    rw [e, l0, l1]
    unfold blockFn blockAt
    rw [dif_pos (show ((ix2 r (⟨j.val, by omega⟩ : Fin 2560) : S128x2560.Idx) 1).val < 2048 from j.isLt)]

/-! ## The blocks the body loads, read off the launch memory -/

/-- The batch row that row `r` of a data block at point `t` is. -/
def rowOf (t : Fin cfg0.N) (r : Fin 128) : Fin 4096 :=
  ⟨t.val * 128 + r.val, by have ht : t.val < 32 := lt_of_lt_of_eq t.isLt N_0; omega⟩

/-- The printed index maps, decided over the 32 grid points: the data and result blocks move down the rows with
    the point, always at block column 0; the weight blocks stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block of the result is some point's. -/
theorem idx_onto5 : ∀ q0 : Fin 32, ∃ t : Fin cfg0.N, win0_5.index t = ![q0.val, 0] :=
  (by decide +kernel : ∀ q0 : Fin 32, ∃ t : Fin grid0.N, win0_5.index t = ![q0.val, 0])

/-- Row `r` of the input block at point `t` is row `128·t + r` of the input array. -/
theorem x_row (c : Dev nD) (t : Fin cfg0.N) (r : Fin 128) (k : Fin 1024) :
    iblk m c 0 t (ix2 r k) = m ((c : Thread nD τ).loc main_arg0) (ix2 (rowOf t r) k) := by
  show V m c main_arg0 (((cfg0.win 0).blk t).view.emb (ix2 r k)) = _
  rw [V_main_arg0]
  refine congrArg (m ((c : Thread nD τ).loc main_arg0)) ?_
  obtain ⟨e0, e1, -⟩ := idx_facts t
  funext a; apply Fin.ext
  match a with
  | ⟨0, _⟩ => show win0_0.index t (0 : Fin 2) * 128 + 1 * r.val = t.val * 128 + r.val; omega
  | ⟨1, _⟩ => show win0_0.index t (1 : Fin 2) * 1024 + 1 * k.val = k.val; omega

/-- Row `r` of the previous state's block at point `t` is the first 2048 entries of row `128·t + r` of its array. -/
theorem p_row (c : Dev nD) (t : Fin cfg0.N) (r : Fin 128) (k : Fin 2048) :
    pblk m c t (ix2 r k) = m ((c : Thread nD τ).loc main_arg1) (ix2 (rowOf t r) (⟨k.val, by omega⟩ : Fin 2560)) := by
  have hm : win0_1.moved (grid0.coords t) (ix2 r k) = true :=
    (win0_1.moved_iff _ _).mpr fun a => by
      have := ((ix2 r k : S128x2048.Idx) a).isLt
      unfold Window.xsize; rw [uncut1 t a]; exact this
  unfold pblk Window.fill
  rw [dif_pos hm]
  show V m c main_arg1 (((cfg0.win 1).blk t).view.emb _) = _
  rw [V_main_arg1]
  refine congrArg (m ((c : Thread nD τ).loc main_arg1)) ?_
  obtain ⟨-, -, e0, e1, -⟩ := idx_facts t
  funext a; apply Fin.ext
  match a with
  | ⟨0, _⟩ => show win0_1.index t (0 : Fin 2) * 128 + 1 * r.val = t.val * 128 + r.val; omega
  | ⟨1, _⟩ => show win0_1.index t (1 : Fin 2) * 2048 + 1 * k.val = k.val; omega

/-- The three weight buffers the region finds are the weight arguments rounded to bf16: at the ideal instance,
    the arguments themselves. -/
theorem V_win (c : Dev nD) : (V m c main_v0 : S2048x1024.Idx → EReal) = m ((c : Thread nD τ).loc main_arg2) := by
  dsimp only [Gen.V, Gen.hostOps0]; after_results; rfl
theorem V_wres (c : Dev nD) : (V m c main_v1 : S2048x2048.Idx → EReal) = m ((c : Thread nD τ).loc main_arg3) := by
  dsimp only [Gen.V, Gen.hostOps0]; after_results; rfl
theorem V_wgate (c : Dev nD) : (V m c main_v2 : S6144x1024.Idx → EReal) = m ((c : Thread nD τ).loc main_arg4) := by
  dsimp only [Gen.V, Gen.hostOps0]; after_results; rfl

/-- Each weight window's block is its whole array, at every point. -/
theorem win_blk (c : Dev nD) (t : Fin cfg0.N) (y : S2048x1024.Idx) :
    iblk m c 2 t y = m ((c : Thread nD τ).loc main_arg2) y := by
  show V m c main_v0 (((cfg0.win 2).blk t).view.emb y) = _
  have e : ((cfg0.win 2).blk t).view.emb y = y := by
    obtain ⟨-, -, -, -, e0, e1, -⟩ := idx_facts t
    funext a; apply Fin.ext
    match a with
    | ⟨0, _⟩ => show win0_2.index t (0 : Fin 2) * 2048 + 1 * (y 0).val = (y 0).val; omega
    | ⟨1, _⟩ => show win0_2.index t (1 : Fin 2) * 1024 + 1 * (y 1).val = (y 1).val; omega
  rw [e]
  exact congrFun (V_win m c) y
theorem wres_blk (c : Dev nD) (t : Fin cfg0.N) (y : S2048x2048.Idx) :
    iblk m c 3 t y = m ((c : Thread nD τ).loc main_arg3) y := by
  show V m c main_v1 (((cfg0.win 3).blk t).view.emb y) = _
  have e : ((cfg0.win 3).blk t).view.emb y = y := by
    obtain ⟨-, -, -, -, -, -, e0, e1, -⟩ := idx_facts t
    funext a; apply Fin.ext
    match a with
    | ⟨0, _⟩ => show win0_3.index t (0 : Fin 2) * 2048 + 1 * (y 0).val = (y 0).val; omega
    | ⟨1, _⟩ => show win0_3.index t (1 : Fin 2) * 2048 + 1 * (y 1).val = (y 1).val; omega
  rw [e]
  exact congrFun (V_wres m c) y
theorem wgate_blk (c : Dev nD) (t : Fin cfg0.N) (y : S6144x1024.Idx) :
    iblk m c 4 t y = m ((c : Thread nD τ).loc main_arg4) y := by
  show V m c main_v2 (((cfg0.win 4).blk t).view.emb y) = _
  have e : ((cfg0.win 4).blk t).view.emb y = y := by
    obtain ⟨-, -, -, -, -, -, -, -, e0, e1, -⟩ := idx_facts t
    funext a; apply Fin.ext
    match a with
    | ⟨0, _⟩ => show win0_4.index t (0 : Fin 2) * 6144 + 1 * (y 0).val = (y 0).val; omega
    | ⟨1, _⟩ => show win0_4.index t (1 : Fin 2) * 1024 + 1 * (y 1).val = (y 1).val; omega
  rw [e]
  exact congrFun (V_wgate m c) y

/-- Entry (r, q) of the result's block at point `t` sits at row `128·t + r`, column `q` of the result array. -/
theorem out_emb (t : Fin cfg0.N) (r : Fin 128) (q : Fin 2560) :
    ((cfg0.win 5).blk t).view.emb (ix2 r q) = (ix2 (rowOf t r) q : S4096x2560.Idx) := by
  obtain ⟨-, -, -, -, -, -, -, -, -, -, e0, e1⟩ := idx_facts t
  funext a; apply Fin.ext
  match a with
  | ⟨0, _⟩ => show win0_5.index t (0 : Fin 2) * 128 + 1 * r.val = t.val * 128 + r.val; omega
  | ⟨1, _⟩ => show win0_5.index t (1 : Fin 2) * 2560 + 1 * q.val = q.val; omega

/-! ## What each point writes back, and the array after the run -/

/-- The specification at the launch memory of core `c`. -/
abbrev Gm (c : Dev nD) : S4096x2560.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- Point `t` writes back block `t` of the specification. -/
theorem flushed5_eq (c : Dev nD) (t : Fin cfg0.N) :
    (dats m 0 c).flushed 5 t = ((cfg0.win 5).blk t).view.read (Elt Ideal) (Gm m c) := by
  show (cfg0.win 5).cut (grid0.coords t) ((dats m 0 c).after 5 t) = _
  rw [after0_5]
  funext y
  obtain ⟨r, q, rfl⟩ : ∃ (r : Fin 128) (q : Fin 2560), y = ix2 r q := ⟨y 0, y 1, eq_ix2 y⟩
  refine (congrFun (out5_eq (iblk m c 0 t) (pblk m c t) (iblk m c 2 t) (iblk m c 3 t) (iblk m c 4 t)) (ix2 r q)).trans ?_
  show blockAt (iblk m c 0 t) (pblk m c t) (iblk m c 2 t) (iblk m c 3 t) (iblk m c 4 t) r q
    = Gm m c (((cfg0.win 5).blk t).view.emb (ix2 r q))
  rw [out_emb t r q]
  have hx : (fun k : Fin 1024 => iblk m c 0 t (ix2 r k)) = rowX (m ((c : Thread nD τ).loc main_arg0)) (rowOf t r) :=
    funext fun k => x_row m c t r k
  have hp : (fun k : Fin 2048 => pblk m c t (ix2 r k)) = rowP (m ((c : Thread nD τ).loc main_arg1)) (rowOf t r) :=
    funext fun k => p_row m c t r k
  have h2 : (iblk m c 2 t : S2048x1024.Idx → EReal) = m ((c : Thread nD τ).loc main_arg2) := funext (win_blk m c t)
  have h3 : (iblk m c 3 t : S2048x2048.Idx → EReal) = m ((c : Thread nD τ).loc main_arg3) := funext (wres_blk m c t)
  have h4 : (iblk m c 4 t : S6144x1024.Idx → EReal) = m ((c : Thread nD τ).loc main_arg4) := funext (wgate_blk m c t)
  unfold blockAt
  by_cases h : q.val < 2048
  · rw [dif_pos h]
    refine Eq.trans ?_ (G_state _ _ _ _ _ (rowOf t r) ⟨q.val, h⟩).symm
    rw [hx, hp, h2, h3, h4]
  · rw [dif_neg h]
    exact (G_pad _ _ _ _ _ _ h).symm

/-- An index of the result array is in point `t`'s block iff each coordinate is in the block's range on its axis. -/
theorem mem_blk5 (t : Fin cfg0.N) (i : S4096x2560.Idx) :
    i ∈ ((cfg0.win 5).blk t).view.set ↔ ∀ a : Fin 2, win0_5.index t a * S128x2560.size a ≤ (i a).val
      ∧ (i a).val < win0_5.index t a * S128x2560.size a + S128x2560.size a := by
  show i ∈ ((View.whole main_v3).slice (win0_5.rect t)).set ↔ _
  rw [View.set_slice_whole, Rect.mem_set_unit]
  exact Iff.rfl

/-- The 32 blocks of 128 rows cover the 4096 rows, every column in each. -/
theorem covered (i : S4096x2560.Idx) :
    ∃ t : Fin cfg0.N, (cfg0.win 5).flush t = true ∧ i ∈ ((cfg0.win 5).blk t).view.set := by
  have hi0 : (i 0).val < 4096 := (i 0).isLt
  have hi1 : (i 1).val < 2560 := (i 1).isLt
  obtain ⟨t, ht⟩ := idx_onto5 ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk5]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 2560 ≤ (i 1).val ∧ (i 1).val < win0_5.index t (1 : Fin 2) * 2560 + 2560
    omega

/-- The result array after the run is the specification. -/
theorem final5 (c : Dev nD) : (dats m 0 c).arrAt 5 cfg0.N = Gm m c :=
  (dats m 0 c).arrAt_eq_of_cover 5 (Gm m c) (fun t _ => flushed5_eq m c t) covered

/-- The kernel's run at the ideal instance: it terminates without a fault with the result array at the
    specification of the launch memory and the five arguments unchanged. -/
theorem run : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.RunValue

end
-- ==== Proof.RefIsSpec.lean ====
/-
  The reference program computes the specification.

  Read one operation at a time at the index (b, j): the three products against transposed weights are the sums the
  specification writes, the quotient 1 / (1 + exp (-s)) is the logistic of s, the three column slices of the gate
  array are the gates at columns j, 2048 + j and 4096 + j, and the select on the comparison with the threshold is the
  spike rule. The final padding keeps these entries in the first 2048 columns and writes the converted integer 0,
  which is the real number 0, in the other 512.
-/
import proofs.«111329_j10806137717145_2_alg».proof.Proof.Gen.ReferenceIdeal.Read
import proofs.«111329_j10806137717145_2_alg».proof.Proof.Spec
import Idealize.ShloMosaic.Lib.KernelVsHost
import Idealize.ShloMosaic.Lib.IdealHost

noncomputable section

namespace Cert.Reservoir.Ref

open Cert.ReferenceIdeal Cert.ReferenceIdeal.Gen Cert.ReferenceIdeal.Read Cert.Reservoir Idealize.ShloMosaic Idealize.ShloMosaic.ValueIdx

/-! ## The composed index maps at (b, j) -/

/-- The previous state's slice reads column j of row b. -/
theorem idx_v0 (b : Fin 4096) (j : Fin 2048) :
    idx_main_v0 (ix2 b j) = ix2 b (⟨j.val, by omega⟩ : Fin 2560) :=
  funext fun a => Fin.ext (by match a with | ⟨0, _⟩ => rfl | ⟨1, _⟩ => rfl)

/-- The left factor of each product over 1024 terms is entry k of row b of the input. -/
theorem lidx_v2 (b : Fin 4096) (j : Fin 2048) (k : Fin 1024) : lidx_main_v2 (ix2 b j) k = ix2 b k :=
  funext fun a => Fin.ext (by match a with | ⟨0, _⟩ => rfl | ⟨1, _⟩ => rfl)
theorem lidx_v6 (b : Fin 4096) (n : Fin 6144) (k : Fin 1024) : lidx_main_v6 (ix2 b n) k = ix2 b k :=
  funext fun a => Fin.ext (by match a with | ⟨0, _⟩ => rfl | ⟨1, _⟩ => rfl)
/-- The left factor of the recurrent product is entry k of row b of the sliced previous state. -/
theorem lidx_v4 (b : Fin 4096) (j : Fin 2048) (k : Fin 2048) : lidx_main_v4 (ix2 b j) k = ix2 b k :=
  funext fun a => Fin.ext (by match a with | ⟨0, _⟩ => rfl | ⟨1, _⟩ => rfl)

/-- The right factor, through the transpose, is entry (j, k) of the weight matrix. -/
theorem ridx_v2 (b : Fin 4096) (j : Fin 2048) (k : Fin 1024) :
    idx_main_v1 (ridx_main_v2 (ix2 b j) k) = ix2 j k :=
  funext fun a => Fin.ext (by match a with | ⟨0, _⟩ => rfl | ⟨1, _⟩ => rfl)
theorem ridx_v4 (b : Fin 4096) (j : Fin 2048) (k : Fin 2048) :
    idx_main_v3 (ridx_main_v4 (ix2 b j) k) = ix2 j k :=
  funext fun a => Fin.ext (by match a with | ⟨0, _⟩ => rfl | ⟨1, _⟩ => rfl)
theorem ridx_v6 (b : Fin 4096) (n : Fin 6144) (k : Fin 1024) :
    idx_main_v5 (ridx_main_v6 (ix2 b n) k) = ix2 n k :=
  funext fun a => Fin.ext (by match a with | ⟨0, _⟩ => rfl | ⟨1, _⟩ => rfl)

/-- The three column slices of the gate array read columns j, 2048 + j, 4096 + j. -/
theorem idx_v13 (b : Fin 4096) (j : Fin 2048) : idx_main_v13 (ix2 b j) = ix2 b (colI j) :=
  funext fun a => Fin.ext (by match a with | ⟨0, _⟩ => rfl | ⟨1, _⟩ => rfl)
theorem idx_v14 (b : Fin 4096) (j : Fin 2048) : idx_main_v14 (ix2 b j) = ix2 b (colF j) :=
  funext fun a => Fin.ext (by match a with | ⟨0, _⟩ => rfl | ⟨1, _⟩ => rfl)
theorem idx_v15 (b : Fin 4096) (j : Fin 2048) : idx_main_v15 (ix2 b j) = ix2 b (colO j) :=
  funext fun a => Fin.ext (by match a with | ⟨0, _⟩ => rfl | ⟨1, _⟩ => rfl)

/-! ## The stages -/

/-- The sliced previous state at (b, j) is entry j of the row the specification reads. -/
theorem prev_eq (x1 : (⟨S4096x2560, .f32⟩ : BufTy).Contents (Elt Ideal)) (b : Fin 4096) (j : Fin 2048) :
    val_main_v0 (F := Ideal) x1 (ix2 b j) = rowP x1 b j := by
  rw [val_main_v0_apply, idx_v0]

/-- The gate array at (b, n) is gate n of row b: 1 / (1 + exp (-s)) with s the row's product with row n
    of the gate weights. -/
theorem gate_eq (x0 : (⟨S4096x1024, .f32⟩ : BufTy).Contents (Elt Ideal)) (x4 : (⟨S6144x1024, .f32⟩ : BufTy).Contents (Elt Ideal)) (b : Fin 4096) (n : Fin 6144) :
    val_main_v12 (F := Ideal) x0 x4 (ix2 b n) = gate (rowX x0 b) x4 n := by
  rw [val_main_v12_apply, val_main_v11_apply, val_main_cst_0_apply, val_main_v10_apply, val_main_v9_apply,
    val_main_cst_apply, val_main_v8_apply, val_main_v7_apply, val_main_v6_apply]
  have hs : (∑ k : Fin 1024, x0 (lidx_main_v6 (ix2 b n) k) * val_main_v5 (F := Ideal) x4 (ridx_main_v6 (ix2 b n) k))
      = ∑ k : Fin 1024, rowX x0 b k * x4 (ix2 n k) :=
    Finset.sum_congr rfl fun k _ => by rw [val_main_v5_apply, lidx_v6, ridx_v6]
  rw [hs]
  simp only [Ideal.ofBits_def, Ideal.ofBits_one_f32, Ideal.hostDivf_def, Ideal.addf_def, Ideal.hostUnary_exp_def,
    Ideal.hostNegf_def, Ideal.negf_def]
  rfl

/-- The sum of the two products at (b, j) is the row's drive at j. -/
theorem drive_eq (x0 : (⟨S4096x1024, .f32⟩ : BufTy).Contents (Elt Ideal)) (x1 : (⟨S4096x2560, .f32⟩ : BufTy).Contents (Elt Ideal)) (x2 : (⟨S2048x1024, .f32⟩ : BufTy).Contents (Elt Ideal)) (x3 : (⟨S2048x2048, .f32⟩ : BufTy).Contents (Elt Ideal)) (b : Fin 4096) (j : Fin 2048) :
    val_main_v19 (F := Ideal) x0 x1 x2 x3 (ix2 b j) = drive (rowX x0 b) (rowP x1 b) x2 x3 j := by
  rw [val_main_v19_apply, val_main_v2_apply, val_main_v4_apply]
  have h2 : (∑ k : Fin 1024, x0 (lidx_main_v2 (ix2 b j) k) * val_main_v1 (F := Ideal) x2 (ridx_main_v2 (ix2 b j) k))
      = ∑ k : Fin 1024, rowX x0 b k * x2 (ix2 j k) :=
    Finset.sum_congr rfl fun k _ => by rw [val_main_v1_apply, lidx_v2, ridx_v2]
  have h4 : (∑ k : Fin 2048, val_main_v0 (F := Ideal) x1 (lidx_main_v4 (ix2 b j) k)
        * val_main_v3 (F := Ideal) x3 (ridx_main_v4 (ix2 b j) k))
      = ∑ k : Fin 2048, rowP x1 b k * x3 (ix2 j k) :=
    Finset.sum_congr rfl fun k _ => by rw [val_main_v3_apply, lidx_v4, ridx_v4, prev_eq]
  rw [h2, h4]
  rfl

/-- The output-gated mix at (b, j) is the specification's state before the spike rule. -/
theorem gated_eq (x0 : (⟨S4096x1024, .f32⟩ : BufTy).Contents (Elt Ideal)) (x1 : (⟨S4096x2560, .f32⟩ : BufTy).Contents (Elt Ideal)) (x2 : (⟨S2048x1024, .f32⟩ : BufTy).Contents (Elt Ideal)) (x3 : (⟨S2048x2048, .f32⟩ : BufTy).Contents (Elt Ideal)) (x4 : (⟨S6144x1024, .f32⟩ : BufTy).Contents (Elt Ideal)) (b : Fin 4096) (j : Fin 2048) :
    val_main_v25 (F := Ideal) x0 x1 x2 x3 x4 (ix2 b j) = gated (rowX x0 b) (rowP x1 b) x2 x3 x4 j := by
  rw [val_main_v25_apply, val_main_v24_apply, val_main_v18_apply, val_main_v17_apply, val_main_cst_1_apply,
    val_main_v16_apply, val_main_v23_apply, val_main_v22_apply, val_main_cst_2_apply, val_main_v21_apply,
    val_main_v20_apply, val_main_v13_apply, val_main_v14_apply, val_main_v15_apply, idx_v13, idx_v14, idx_v15,
    gate_eq, gate_eq, gate_eq, drive_eq, prev_eq]
  rfl

/-- Entry (b, j) of the reference's state before padding is the specification's state of row b at j. -/
theorem state_eq (x0 : (⟨S4096x1024, .f32⟩ : BufTy).Contents (Elt Ideal)) (x1 : (⟨S4096x2560, .f32⟩ : BufTy).Contents (Elt Ideal)) (x2 : (⟨S2048x1024, .f32⟩ : BufTy).Contents (Elt Ideal)) (x3 : (⟨S2048x2048, .f32⟩ : BufTy).Contents (Elt Ideal)) (x4 : (⟨S6144x1024, .f32⟩ : BufTy).Contents (Elt Ideal)) (b : Fin 4096) (j : Fin 2048) :
    val_main_v30 (F := Ideal) x0 x1 x2 x3 x4 (ix2 b j) = stateRow (rowX x0 b) (rowP x1 b) x2 x3 x4 j := by
  rw [val_main_v30_apply, val_main_v27_apply, val_main_v29_apply, val_main_v26_apply, val_main_cst_3_apply,
    val_main_v28_apply, val_main_cst_4_apply, gated_eq]
  rfl

/-! ## The padded result -/

/-- The padding value: the integer constant 0 converted, the real number 0. -/
theorem padval_eq (i : S_.Idx) : val_main_call1_v0 (F := Ideal) i = 0 := by
  rw [val_main_call1_v0_apply, val_main_c_apply]
  show ((((0#32 : BitVec 32).toInt : ℝ)) : EReal) = 0
  simp

/-- The reference program's result is the specification: the state in the first 2048 columns, zero in the rest. -/
theorem result_eq (x0 : (⟨S4096x1024, .f32⟩ : BufTy).Contents (Elt Ideal)) (x1 : (⟨S4096x2560, .f32⟩ : BufTy).Contents (Elt Ideal)) (x2 : (⟨S2048x1024, .f32⟩ : BufTy).Contents (Elt Ideal)) (x3 : (⟨S2048x2048, .f32⟩ : BufTy).Contents (Elt Ideal)) (x4 : (⟨S6144x1024, .f32⟩ : BufTy).Contents (Elt Ideal)) :
    val_main_v31 (F := Ideal) x0 x1 x2 x3 x4 = G x0 x1 x2 x3 x4 := by
  funext i
  obtain ⟨b, c, rfl⟩ : ∃ (b : Fin 4096) (c : Fin 2560), i = ix2 b c := ⟨i 0, i 1, eq_ix2 i⟩
  by_cases h : c.val < 2048
  · -- a column of the state: the padding keeps the operand's entry at the same coordinates
    refine Eq.trans ?_ (G_state x0 x1 x2 x3 x4 b ⟨c.val, h⟩).symm
    rw [← state_eq]
    unfold val_main_v31
    exact pad_apply_of_inside _ _ _ _ _ pads_S4096x2048_S4096x2560_000_05120 h_S_ (ix2 b c)
      (ix2 b (⟨c.val, h⟩ : Fin 2048)) (fun a => match a with
        | ⟨0, _⟩ => by show b.val = 0 + b.val * (0 + 1); omega
        | ⟨1, _⟩ => by show c.val = 0 + c.val * (0 + 1); omega)
  · -- a padding column: the padding value
    rw [G_pad x0 x1 x2 x3 x4 (ix2 b c) h]
    unfold val_main_v31
    rw [pad_apply_of_not_inside _ _ _ _ _ pads_S4096x2048_S4096x2560_000_05120 h_S_ (ix2 b c) (1 : Fin 2) (by
      intro hh
      apply h
      have h3 := hh.2.2
      change (c.val - 0) / (0 + 1) < 2048 at h3
      omega)]
    exact padval_eq _

end Cert.Reservoir.Ref

end
-- ==== Proof.lean ====
/-
  The reservoir-update kernel against its jnp reference: the five claims.

  Both programs compute, for every batch row b and state coordinate j < 2048,
    state(b, j) = spike (o · (keep · (f · prev[b, j]) + leak · tanh (i · (x_b · W_in[j] + prev_b · W_res[j]))))
  with i, f, o the logistic gates of x_b · W_gate[j], W_gate[2048 + j], W_gate[4096 + j], and pad the 2048 state
  columns with 512 zero columns. The kernel does it 128 rows at a time over a grid of 32 points, with the weights
  rounded to bf16 beforehand and three matrix products against the transposed weights; the reference transposes the
  weights, takes three whole products, spells the logistic as 1 / (1 + exp (-z)), and pads at the end. Over the
  extended reals rounding is the identity, a product into a zero accumulator is the plain sum, and the logistic is
  that quotient by definition, so the two results are one function of the arguments (`Cert.Reservoir.G`): no
  rearrangement of a sum and no distributive law is used, and the finiteness precondition is never opened.

  The frames of the two kernel programs are proved from the body's run at a generic grid point (FrameBits,
  FrameIdeal); the reference's frame is its run with the result dropped; the idealization rewrote nothing, so
  `preserves` is `True`; `algebraic` pairs the kernel's run (KernelValue: the result array is `G` of the launch
  memory) with the reference's (RefIsSpec: its result term is `G` of its arguments) on memories that agree.
-/
import proofs.«111329_j10806137717145_2_alg».proof.Defs
import proofs.«111329_j10806137717145_2_alg».proof.Proof.Gen.Kernel
import proofs.«111329_j10806137717145_2_alg».proof.Proof.Gen.KernelIdeal
import proofs.«111329_j10806137717145_2_alg».proof.Proof.Gen.ReferenceIdeal
import proofs.«111329_j10806137717145_2_alg».proof.Proof.Gen.Pre_finite_inputs
import proofs.«111329_j10806137717145_2_alg».proof.Proof.Gen.ReferenceIdeal.Run
import proofs.«111329_j10806137717145_2_alg».proof.Proof.Gen.ReferenceIdeal.Read
import proofs.«111329_j10806137717145_2_alg».proof.Proof.FrameBits
import proofs.«111329_j10806137717145_2_alg».proof.Proof.FrameIdeal
import proofs.«111329_j10806137717145_2_alg».proof.Proof.KernelValue
import proofs.«111329_j10806137717145_2_alg».proof.Proof.RefIsSpec
import Idealize.ShloMosaic.Adequacy
import Idealize.ShloMosaic.Init

noncomputable section

namespace Cert.Proof

open Idealize.ShloMosaic Idealize.SL.Sem

/-- The kernel as printed runs to the end without a fault and keeps its arguments. -/
theorem frame_kernel : Cert.frame_Kernel := fun m ρ _ => Cert.Kernel.Body.frame m ρ

/-- So does its idealization. -/
theorem frame_kernel_ideal : Cert.frame_KernelIdeal := fun m ρ _ => Cert.KernelIdeal.Body.frame m ρ

/-- The reference is a straight line of host operations: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result array at the one function `G`
    of those arguments. -/
theorem algebraic : Cert.algebraic_KernelIdeal_ReferenceIdeal := by
  intro m ρ m' ρ' _ hagree
  refine ⟨fun c => Cert.KernelIdeal.RunValue.Gm m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.Reservoir.Ref.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
